-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S1024x512 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S16384x4096 : Shape := ⟨2, ![16384, 4096]⟩
abbrev S16384 : Shape := ⟨1, ![16384]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S8192x4096 .f32) (main_arg1 : FVec F S16384x4096 .f32) (main_arg2 : FVec F S16384 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S8192x4096 : Shape := ⟨2, ![8192, 4096]⟩
abbrev S16384x4096 : Shape := ⟨2, ![16384, 4096]⟩
abbrev S16384 : Shape := ⟨1, ![16384]⟩
abbrev S_ : Shape := ⟨0, ![]⟩
abbrev S1x1 : Shape := ⟨2, ![1, 1]⟩
abbrev S1x16384 : Shape := ⟨2, ![1, 16384]⟩
abbrev S8192x16384 : Shape := ⟨2, ![8192, 16384]⟩
abbrev S1024x512 : Shape := ⟨2, ![1024, 512]⟩
abbrev S1x1024 : Shape := ⟨2, ![1, 1024]⟩
abbrev S1024x1024 : Shape := ⟨2, ![1024, 1024]⟩

abbrev nBuf : Space → Nat
  | .hbm => 13
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S16384, .f32⟩
  | .hbm, ⟨3, _⟩ => ⟨S16384x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1x1, .f32⟩
  | .hbm, ⟨11, _⟩ => ⟨S1x16384, .f32⟩
  | .hbm, ⟨12, _⟩ => ⟨S8192x16384, .f32⟩
  | .local _ .vmem, ⟨0, _⟩ => ⟨S1x1, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨3, ![8, 16, 8], ![false, false, false]⟩

def k0_cond2 (i : grid0.Coords) : BitVec 1 :=
  let arg2 : BitVec 32 := BitVec.ofNat 32 (i 2).val
  let c7_i32 : BitVec 32 := 7#32
  let v35 : BitVec 1 := Scalar.cmpi .eq arg2 c7_i32
  let v36 : BitVec 32 := Scalar.extui v35
  let c0_i32_12 : BitVec 32 := 0#32
  let v37 : BitVec 1 := Scalar.cmpi .ne v36 c0_i32_12
  v37

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  reducesTo_S16384x4096_S_d0_1 : S16384x4096.ReducesTo [0, 1] S_
  h_S_ : 0 < S_.numel
  shapeCasts_S_S1x1 : S_.ShapeCasts S1x1
  shapeCasts_S16384_S1x16384 : S16384.ShapeCasts S1x16384
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1024x512_S1024x512_0_0 : ∀ a, (![0, 0] : Fin 2 → Nat) a + S1024x512.size a ≤ S1024x512.size a
  h_S1024x512 : 0 < S1024x512.numel
  natLt_1_32 : 1 < 32
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1.size a ≤ S1x1.size a
  hwx0_0 : ∀ i : grid0.Coords, EltTy.bits .f32 = 32 ∨ (Rect.block (s := S1x1) S1x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x4096.size a
  hwx0_1 : ∀ i : grid0.Coords, EltTy.bits .f32 = 32 ∨ (Rect.block (s := S8192x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S16384x4096.size a
  hwx0_2 : ∀ i : grid0.Coords, EltTy.bits .f32 = 32 ∨ (Rect.block (s := S16384x4096) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x16384.size a
  hwx0_3 : ∀ i : grid0.Coords, EltTy.bits .f32 = 32 ∨ (Rect.block (s := S1x16384) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x16384.size a
  hwx0_4 : ∀ i : grid0.Coords, EltTy.bits .f32 = 32 ∨ (Rect.block (s := S8192x16384) S1024x1024.size (cc0_transform_4 i) (hinb0_4 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v4) S1x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S16384x4096 : Shape := ⟨2, ![16384, 4096]⟩
abbrev S16384 : Shape := ⟨1, ![16384]⟩
abbrev S_ : Shape := ⟨0, ![]⟩
abbrev S8192x16384 : Shape := ⟨2, ![8192, 16384]⟩
abbrev S1x16384 : Shape := ⟨2, ![1, 16384]⟩

abbrev nBuf : Space → Nat
  | .hbm => 25
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S16384, .f32⟩
  | .hbm, ⟨3, _⟩ => ⟨S16384x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .i1⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S8192x16384, .f32⟩
  | .hbm, ⟨22, _⟩ => ⟨S1x16384, .f32⟩
  | .hbm, ⟨23, _⟩ => ⟨S8192x16384, .f32⟩
  | .hbm, ⟨24, _⟩ => ⟨S8192x16384, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S16384x4096_S_d0_1 : S16384x4096.ReducesTo [0, 1] S_
  h_S_ : 0 < S_.numel
  bcast_S_S16384x4096 : S_.BroadcastsInDim S16384x4096 (![] : Fin 0 → Fin S16384x4096.rank)
  bcast_S16384_S1x16384_1 : S16384.BroadcastsInDim S1x16384 (![1] : Fin 1 → Fin S1x16384.rank)
  bcast_S1x16384_S8192x16384_0_1 : S1x16384.BroadcastsInDim S8192x16384 (![0, 1] : Fin 2 → Fin S8192x16384.rank)
  dot_S8192x4096_S16384x4096_S8192x16384_1_1_0_0_n_n_wf : DotDims.WF S8192x4096 S16384x4096 S8192x16384 [1] [1] [0] [0] [] []

variable [Facts₀]

def dot_S8192x4096_S16384x4096_S8192x16384_1_1_0_0_n_n : DotDims S8192x4096 S16384x4096 S8192x16384 where
  lhsContracting := [1]
  rhsContracting := [1]
  lhsNonContracting := [0]
  rhsNonContracting := [0]
  lhsBatch := []
  rhsBatch := []
  wf := dot_S8192x4096_S16384x4096_S8192x16384_1_1_0_0_n_n_wf

class Facts : Prop extends Facts₀ where

variable [Facts]
-- ==== Proof.Pieces.lean ====
/-
  What one grid step of the kernel body leaves behind, as values.

  The body keeps a 1024×1024 accumulator between grid steps. At the first step of a run along the
  contraction axis it stores zeros into it; at every step it loads the accumulator, adds the product of the
  step's row tile of `x` with the step's quantised tile of `weight`, and stores the sum back; at the last step
  of the run it loads the accumulator once more, adds the bias row, and stores the result into the output tile.
  Every store covers its buffer whole, so what a buffer holds after the step is the payload of the last store
  into it, and a load of a buffer stored earlier in the same step reads that store's payload.

  Three kinds of step occur: the first of a run (zero, then add), a middle one (add), and the last (add, then
  write the output tile). For each, the accumulator afterwards — and for the last the output tile — is stated
  as the body's arithmetic applied to the blocks the step was given.
-/
import proofs.«134162_j4767413698790_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a whole-buffer access. -/
theorem hz : (![0, 0] : Fin 2 → Nat) = fun _ => 0 := funext fun a => by fin_cases a <;> rfl

/-- A middle step: the accumulator holding `acc` ends at `acc` plus the step's tile product. -/
theorem acc_mid (c : Dev nD) (i : grid0.Coords) (arg3 : Memref sig .tc .vmem S1x1 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i) (x0 : Vec F S1x1 .f32) (x1 : Vec F S1024x512 .f32) (x2 : Vec F S1024x512 .f32) (x3 : Vec F S1x1024 .f32) (acc : Vec F S1024x1024 .f32) :
    sout0_B_0 c i arg3 harg3 arg4 harg4 arg5 harg5 arg6 harg6 arg7 harg7 arg8 harg8 hc0 hc1 x0 x1 x2 x3 acc = k0_pay2 x0 x2 x1 acc := by
  unfold sout0_B_0
  rw [View.read_writes_eq_canon _ _ _ (scover0_B_0 c i arg3 harg3 arg4 harg4 arg5 harg5 arg6 harg6 arg7 harg7 arg8 harg8 hc0 hc1 x0 x1 x2 x3 acc)]
  unfold kernelRun0_B
  dsimp only
  rw [View.canon_unit_zero hz]
  simp only [View.readAt_eq_ld, harg3.read_unread, harg4.read_unread, harg5.read_unread, harg6.read_unread,
    harg8.read_unread, View.ld_unit_zero (S := S1x1) hz, View.ld_unit_zero (S := S1024x512) hz,
    View.ld_unit_zero (S := S1x1024) hz, View.ld_unit_zero (S := S1024x1024) hz]

/-- The last step of a run: the accumulator ends at `acc` plus the step's tile product, as in a middle step. -/
theorem acc_last (c : Dev nD) (i : grid0.Coords) (arg3 : Memref sig .tc .vmem S1x1 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i) (x0 : Vec F S1x1 .f32) (x1 : Vec F S1024x512 .f32) (x2 : Vec F S1024x512 .f32) (x3 : Vec F S1x1024 .f32) (acc : Vec F S1024x1024 .f32) :
    sout0_C_0 c i arg3 harg3 arg4 harg4 arg5 harg5 arg6 harg6 arg7 harg7 arg8 harg8 hc0 hc1 x0 x1 x2 x3 acc = k0_pay2 x0 x2 x1 acc := by
  unfold sout0_C_0
  rw [View.read_writes_eq_canon _ _ _ (scover0_C_0 c i arg3 harg3 arg4 harg4 arg5 harg5 arg6 harg6 arg7 harg7 arg8 harg8 hc0 hc1 x0 x1 x2 x3 acc)]
  unfold kernelRun0_C
  dsimp only
  sl_unfold_words
  rw [View.canon_unit_zero hz]
  simp only [View.readAt_eq_ld, harg3.read_unread, harg4.read_unread, harg5.read_unread, harg6.read_unread,
    harg8.read_unread, View.ld_unit_zero (S := S1x1) hz, View.ld_unit_zero (S := S1024x512) hz,
    View.ld_unit_zero (S := S1x1024) hz, View.ld_unit_zero (S := S1024x1024) hz]

/-- The last step of a run: the output tile is the accumulator as that step leaves it, plus the bias row. -/
theorem out_last (c : Dev nD) (i : grid0.Coords) (arg3 : Memref sig .tc .vmem S1x1 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i) (x0 : Vec F S1x1 .f32) (x1 : Vec F S1024x512 .f32) (x2 : Vec F S1024x512 .f32) (x3 : Vec F S1x1024 .f32) (acc : Vec F S1024x1024 .f32) :
    out0_C_4 c i arg3 harg3 arg4 harg4 arg5 harg5 arg6 harg6 arg7 harg7 arg8 harg8 hc0 hc1 x0 x1 x2 x3 acc = k0_pay3 (k0_pay2 x0 x2 x1 acc) x3 := by
  unfold out0_C_4
  rw [View.read_writes_eq_canon _ _ _ (cover0_C_4 c i arg3 harg3 arg4 harg4 arg5 harg5 arg6 harg6 arg7 harg7 arg8 harg8 hc0 hc1 x0 x1 x2 x3 acc)]
  unfold kernelRun0_C
  dsimp only
  sl_unfold_words
  rw [View.canon_unit_zero hz, View.readCov_unit_zero (S := S1024x1024) _ hz]
  simp only [View.readAt_eq_ld, harg3.read_unread, harg4.read_unread, harg5.read_unread, harg6.read_unread,
    harg8.read_unread, View.ld_unit_zero (S := S1x1) hz, View.ld_unit_zero (S := S1024x512) hz,
    View.ld_unit_zero (S := S1x1024) hz, View.ld_unit_zero (S := S1024x1024) hz]

/-- The first step of a run: the accumulator is zeroed, read back, and ends at zero plus the step's tile
    product, whatever it held before. -/
theorem acc_first (c : Dev nD) (i : grid0.Coords) (arg3 : Memref sig .tc .vmem S1x1 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i) (x0 : Vec F S1x1 .f32) (x1 : Vec F S1024x512 .f32) (x2 : Vec F S1024x512 .f32) (x3 : Vec F S1x1024 .f32) :
    sout0_A_0 c i arg3 harg3 arg4 harg4 arg5 harg5 arg6 harg6 arg7 harg7 arg8 harg8 hc0 hc1 x0 x1 x2 x3 = k0_pay2 x0 x2 x1 k0_pay1 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, harg5.read_unread, harg6.read_unread,
    harg8.read_unread, View.ld_unit_zero (S := S1x1) hz, View.ld_unit_zero (S := S1024x512) hz,
    View.ld_unit_zero (S := S1x1024) hz, View.ld_unit_zero (S := S1024x1024) hz]

end Cert.KernelIdeal.Pieces

end
-- ==== Proof.Quant.lean ====
/-
  The ternary quantisation of one weight entry, on the extended reals.

  With the scale `s` (the mean of the absolute weights, bounded below by a small constant) an entry `w` is
  divided by `s`, replaced by its sign where the quotient's magnitude exceeds one half and by zero elsewhere,
  and multiplied by `s` again: `sign (w / s) · [ |w / s| > 1/2 ] · s`.

  The reference writes the sign as the host's `sign` and the indicator as the comparison's bit converted
  unsigned. The kernel writes the sign as "one with the quotient's sign bit where the magnitude is positive, the
  quotient itself elsewhere" and the indicator as the comparison's bit widened to a word and converted signed.
  On the extended reals the two spellings are one function of `w` and `s`, at the infinities too: the quotient
  itself is only chosen where it is zero, which is the sign of zero, and a one-bit value widened without sign
  reads the same signed as unsigned.
-/
import Idealize.ShloMosaic.PureOps.Ideal.Laws

noncomputable section

namespace Cert.BitLinear

open Idealize.ShloMosaic

/-- The quantised entry, in the reference's spelling: `sign (w / s) · [ |w / s| > 1/2 ] · s`. -/
def quant (s w : EReal) : EReal :=
  FloatOps.mulf (F := Ideal) (φ := .f32)
    (FloatOps.mulf (F := Ideal) (φ := .f32)
      (FloatOps.hostUnary (F := Ideal) (φ := .f32) .sign (FloatOps.hostDivf (F := Ideal) (φ := .f32) w s))
      (FloatOps.uitofp (F := Ideal) .f32
        (FloatOps.cmpf (F := Ideal) (φ := .f32) .ogt
          (FloatOps.hostAbsf (F := Ideal) (φ := .f32) (FloatOps.hostDivf (F := Ideal) (φ := .f32) w s))
          (FloatOps.ofBits (F := Ideal) .f32 0x3F000000#32))))
    s

/-- One bit widened to a word without sign is the same number read signed as the bit read unsigned. -/
theorem toInt_setWidth_bit : ∀ b : BitVec 1, (b.setWidth 32).toInt = (b.toNat : Int) := by decide

/-- So converting the widened bit as a signed word gives what converting the bit unsigned gives. -/
theorem sitofp_widened_bit (b : BitVec 1) :
    FloatOps.sitofp (F := Ideal) .f32 (b.setWidth 32) = FloatOps.uitofp (F := Ideal) .f32 b := by
  show (((b.setWidth 32).toInt : ℝ) : EReal) = ((b.toNat : ℝ) : EReal)
  rw [toInt_setWidth_bit b]
  norm_cast

/-- The kernel's spelling of the quantised entry is the reference's. -/
theorem kernel_quant (s w : EReal) :
    FloatOps.mulf (F := Ideal) (φ := .f32)
      (FloatOps.mulf (F := Ideal) (φ := .f32)
        (Scalar.select
          (FloatOps.cmpf (F := Ideal) (φ := .f32) .ogt
            (FloatOps.absf (F := Ideal) (φ := .f32) (FloatOps.divf (F := Ideal) (φ := .f32) w s))
            (Scalar.ofBits (F := Ideal) .f32 0x00000000#32))
          (Scalar.select
            (FloatOps.cmpf (F := Ideal) (φ := .f32) .olt (FloatOps.divf (F := Ideal) (φ := .f32) w s)
              (Scalar.ofBits (F := Ideal) .f32 0x00000000#32))
            (Scalar.ofBits (F := Ideal) .f32 0xBF800000#32) (Scalar.ofBits (F := Ideal) .f32 0x3F800000#32))
          (FloatOps.divf (F := Ideal) (φ := .f32) w s))
        (FloatOps.sitofp (F := Ideal) .f32
          ((FloatOps.cmpf (F := Ideal) (φ := .f32) .ogt
            (FloatOps.absf (F := Ideal) (φ := .f32) (FloatOps.divf (F := Ideal) (φ := .f32) w s))
            (Scalar.ofBits (F := Ideal) .f32 0x3F000000#32)).setWidth 32)))
      s = quant s w := by
  rw [Ideal.jnp_sign_eq_sign_f32, sitofp_widened_bit]
  rfl

end Cert.BitLinear

end
-- ==== Proof.Payload.lean ====
/-
  The body's arithmetic read at one entry, on the extended reals.

  One grid step's update of the accumulator, at row `p` and column `q` of the 1024×1024 tile, adds to what the
  accumulator held there the sum over the step's 512 contraction positions `k` of `x[p, k]` times the quantised
  weight at `[q, k]`: the matrix unit contracts axis 1 of the `x` tile with axis 1 of the weight tile into a zero
  accumulator, the change of float format before it is the identity, and the weight tile is quantised entry by
  entry with the scale read from the 1×1 block. The zero block a run starts from is zero at every entry, and the
  output tile is the accumulator plus the bias row's entry of the column.
-/
import proofs.«134162_j4767413698790_1_alg».proof.Proof.Gen.KernelIdeal.Skeleton
import proofs.«134162_j4767413698790_1_alg».proof.Proof.Quant
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.BitLinear

/-- The tile product's dimension numbers: axis 1 of each operand contracted, rows of the first and rows of the
    second kept. -/
abbrev tileDot : DotDims S1024x512 S1024x512 S1024x1024 := dot_S1024x512_S1024x512_S1024x1024_1_1_0_0_n_n

theorem lhs_row (i : S1024x1024.Idx) (k : tileDot.contr.Idx) : (tileDot.lhsIdx i k 0).val = (i 0).val := by
  unfold DotDims.lhsIdx
  rw [dif_neg (show ¬(0 : Fin S1024x512.rank) ∈ tileDot.lhsBatch by decide),
    dif_pos (show (0 : Fin S1024x512.rank) ∈ tileDot.lhsNonContracting by decide)]
  rfl

theorem lhs_col (i : S1024x1024.Idx) (k : tileDot.contr.Idx) : (tileDot.lhsIdx i k 1).val = (k ⟨0, by decide⟩).val :=
  tileDot.lhsIdx_val_of_single rfl i k

theorem rhs_row (i : S1024x1024.Idx) (k : tileDot.contr.Idx) : (tileDot.rhsIdx i k 0).val = (i 1).val := by
  unfold DotDims.rhsIdx
  rw [dif_neg (show ¬(0 : Fin S1024x512.rank) ∈ tileDot.rhsBatch by decide),
    dif_pos (show (0 : Fin S1024x512.rank) ∈ tileDot.rhsNonContracting by decide)]
  rfl

theorem rhs_col (i : S1024x1024.Idx) (k : tileDot.contr.Idx) : (tileDot.rhsIdx i k 1).val = (k ⟨0, by decide⟩).val :=
  tileDot.rhsIdx_val_of_single rfl i k

/-- The tile product into a zero accumulator, at `(p, q)`: the sum over `k` of the first operand at `(p, k)`
    times the second at `(q, k)`. -/
theorem tile_product {φ₁ φ₂ : FTy} (lhs : FVec Ideal S1024x512 φ₁) (rhs : FVec Ideal S1024x512 φ₂) (p q : Fin 1024) :
    FloatOps.matmul tileDot none lhs rhs (constant S1024x1024 .f32 0x00000000#32) (ix2 p q)
      = ∑ k : Fin 512, lhs (ix2 p k) * rhs (ix2 q k) := by
  refine (Ideal.matmul_constant_zero_apply tileDot none lhs rhs (ix2 p q)).trans ?_
  rw [← Equiv.sum_comp (contrEquiv1 tileDot 512 rfl rfl).symm]
  refine Finset.sum_congr rfl fun k _ => ?_
  have hk := contrEquiv1_symm_val tileDot 512 rfl rfl k
  have el : tileDot.lhsIdx (ix2 p q) ((contrEquiv1 tileDot 512 rfl rfl).symm k) = ix2 p k := funext fun a => Fin.ext (by
    match a with
    | ⟨0, _⟩ => exact lhs_row _ _
    | ⟨1, _⟩ => exact (lhs_col _ _).trans hk)
  have er : tileDot.rhsIdx (ix2 p q) ((contrEquiv1 tileDot 512 rfl rfl).symm k) = ix2 q k := funext fun a => Fin.ext (by
    match a with
    | ⟨0, _⟩ => exact rhs_row _ _
    | ⟨1, _⟩ => exact (rhs_col _ _).trans hk)
  rw [el, er]

/-- The 1×1 block's one entry, as the body extracts it. -/
theorem scale_entry {α : Type} (x0 : S1x1.Idx → α) : extractAt ![0, 0] x0 inpos_S1x1_p0_0 = x0 (ix2 0 0) :=
  congrArg x0 (funext fun a => Fin.ext (by match a with | ⟨0, _⟩ => rfl | ⟨1, _⟩ => rfl))

/-- ONE STEP at an entry: what the accumulator held plus the step's 512 products. -/
theorem step_apply (x0 : Vec Ideal S1x1 .f32) (w x : Vec Ideal S1024x512 .f32) (acc : Vec Ideal S1024x1024 .f32)
    (p q : Fin 1024) :
    k0_pay2 (F := Ideal) x0 w x acc (ix2 p q)
      = acc (ix2 p q) + ∑ k : Fin 512, x (ix2 p k) * quant (x0 (ix2 0 0)) (w (ix2 q k)) := by
  unfold k0_pay2
  simp only [shapeCast_self]
  refine congrArg (acc (ix2 p q) + ·) ?_
  refine (tile_product _ _ p q).trans ?_
  refine Finset.sum_congr rfl fun k _ => ?_
  refine congrArg (x (ix2 p k) * ·) ?_
  have e_trunc : ∀ (a : FVec Ideal S1024x512 .f32) (i : S1024x512.Idx), truncf .bf16 a bitsLt_bf16_f32 i = a i := fun _ _ => rfl
  have e_mul : ∀ (a b : FVec Ideal S1024x512 .f32) (i : S1024x512.Idx), mulf a b i = FloatOps.mulf (F := Ideal) (φ := .f32) (a i) (b i) := fun _ _ _ => rfl
  have e_div : ∀ (a b : FVec Ideal S1024x512 .f32) (i : S1024x512.Idx), divf a b i = FloatOps.divf (F := Ideal) (φ := .f32) (a i) (b i) := fun _ _ _ => rfl
  have e_abs : ∀ (a : FVec Ideal S1024x512 .f32) (i : S1024x512.Idx), absf a i = FloatOps.absf (F := Ideal) (φ := .f32) (a i) := fun _ _ => rfl
  have e_cst : ∀ (b : BitVec 32) (i : S1024x512.Idx), constant (F := Ideal) S1024x512 .f32 b i = Scalar.ofBits (F := Ideal) .f32 b := fun _ _ => rfl
  simp only [e_trunc, e_mul, e_div, e_abs, e_cst, select_apply, cmpf_apply, extui_apply, sitofp_apply, broadcast_apply, scale_entry]
  exact kernel_quant _ _

/-- The zero block at an entry. -/
theorem zero_apply (j : S1024x1024.Idx) : k0_pay1 (F := Ideal) j = 0 := by
  unfold k0_pay1
  simp only [shapeCast_self]
  exact Ideal.ofBits_zero_f32

/-- The output tile at an entry: the accumulator there plus the bias row's entry of the column. -/
theorem out_apply (acc : Vec Ideal S1024x1024 .f32) (b : Vec Ideal S1x1024 .f32) (p q : Fin 1024) :
    k0_pay3 (F := Ideal) acc b (ix2 p q) = acc (ix2 p q) + b (ix2 (0 : Fin 1) q) := by
  unfold k0_pay3
  simp only [shapeCast_self]
  refine congrArg (acc (ix2 p q) + ·) ?_
  exact broadcastTo_1b_ab_apply b broadcasts_S1x1024_S1024x1024 p q

end Cert.KernelIdeal.Payload

end
-- ==== Proof.Blocks.lean ====
/-
  The blocks a grid step is given, as entries of the whole arrays.

  The grid has 8 × 16 × 8 = 1024 steps; step `n` has row-tile number `n / 128`, column-tile number
  `(n / 8) mod 16` and contraction-tile number `n mod 8`. At step `n` the `x` block's entry `(p, k)` is
  `x[1024·(n / 128) + p, 512·(n mod 8) + k]`, the weight block's entry `(q, k)` is
  `weight[1024·((n / 8) mod 16) + q, 512·(n mod 8) + k]`, the bias block's entry `(0, q)` is the bias row at
  `1024·((n / 8) mod 16) + q`, and the 1×1 block is the scale at every step. The scale array the kernel is handed
  is the host's scalar `max (Σ|weight| / 2²⁶, ε)` recast to 1×1, and the bias row is the bias vector recast to
  one row.
-/
import proofs.«134162_j4767413698790_1_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- Row `p` of step `n`'s row tile, in `x` and in the result. -/
def rowX (n : ℕ) (p : Fin 1024) : Fin 8192 := ⟨1024 * (n / 128 % 8) + p.val, by have := p.isLt; omega⟩
/-- Row `q` of step `n`'s column tile, in `weight`; also a column of the result and a position of the bias. -/
def rowW (n : ℕ) (q : Fin 1024) : Fin 16384 := ⟨1024 * (n / 8 % 16) + q.val, by have := q.isLt; omega⟩
/-- Position `k` of step `n`'s contraction tile. -/
def colK (n : ℕ) (k : Fin 512) : Fin 4096 := ⟨512 * (n % 8) + k.val, by have := k.isLt; omega⟩

/-- The windows' block numbers at each step, decided over the grid. -/
theorem tile_numbers : ∀ t : Fin cfg0.N,
    win0_0.index t (0 : Fin 2) = 0 ∧ win0_0.index t (1 : Fin 2) = 0
    ∧ win0_1.index t (0 : Fin 2) = t.val / 128 % 8 ∧ win0_1.index t (1 : Fin 2) = t.val % 8
    ∧ win0_2.index t (0 : Fin 2) = t.val / 8 % 16 ∧ win0_2.index t (1 : Fin 2) = t.val % 8
    ∧ win0_3.index t (0 : Fin 2) = 0 ∧ win0_3.index t (1 : Fin 2) = t.val / 8 % 16
    ∧ win0_4.index t (0 : Fin 2) = t.val / 128 % 8 ∧ win0_4.index t (1 : Fin 2) = t.val / 8 % 16 :=
  (by decide +kernel : ∀ t : Fin grid0.N, _)

/-- The `x` block at a step. -/
theorem blk_x (c : Dev nD) (t : Fin cfg0.N) (p : Fin 1024) (k : Fin 512) :
    (iblk m c 1 t : Vec F S1024x512 .f32) (ix2 p k) = V m c main_arg0 (ix2 (rowX t.val p) (colK t.val k)) := by
  show V m c main_arg0 (((cfg0.win 1).blk t).view.emb (ix2 p k)) = _
  obtain ⟨-, -, e0, e1, -⟩ := tile_numbers t
  refine congrArg (V m c main_arg0) (funext fun a => Fin.ext ?_)
  match a with
  | ⟨0, _⟩ => show win0_1.index t (0 : Fin 2) * 1024 + 1 * p.val = 1024 * (t.val / 128 % 8) + p.val; omega
  | ⟨1, _⟩ => show win0_1.index t (1 : Fin 2) * 512 + 1 * k.val = 512 * (t.val % 8) + k.val; omega

/-- The weight block at a step. -/
theorem blk_w (c : Dev nD) (t : Fin cfg0.N) (q : Fin 1024) (k : Fin 512) :
    (iblk m c 2 t : Vec F S1024x512 .f32) (ix2 q k) = V m c main_arg1 (ix2 (rowW t.val q) (colK t.val k)) := by
  show V m c main_arg1 (((cfg0.win 2).blk t).view.emb (ix2 q k)) = _
  obtain ⟨-, -, -, -, e0, e1, -⟩ := tile_numbers t
  refine congrArg (V m c main_arg1) (funext fun a => Fin.ext ?_)
  match a with
  | ⟨0, _⟩ => show win0_2.index t (0 : Fin 2) * 1024 + 1 * q.val = 1024 * (t.val / 8 % 16) + q.val; omega
  | ⟨1, _⟩ => show win0_2.index t (1 : Fin 2) * 512 + 1 * k.val = 512 * (t.val % 8) + k.val; omega

/-- The 1×1 block at a step: the scale array's one entry. -/
theorem blk_s (c : Dev nD) (t : Fin cfg0.N) :
    (iblk m c 0 t : Vec F S1x1 .f32) (ix2 0 0) = V m c main_v4 (ix2 0 0) := by
  show V m c main_v4 (((cfg0.win 0).blk t).view.emb (ix2 0 0)) = _
  obtain ⟨e0, e1, -⟩ := tile_numbers t
  refine congrArg (V m c main_v4) (funext fun a => Fin.ext ?_)
  match a with
  | ⟨0, _⟩ => show win0_0.index t (0 : Fin 2) * 1 + 1 * 0 = 0; omega
  | ⟨1, _⟩ => show win0_0.index t (1 : Fin 2) * 1 + 1 * 0 = 0; omega

/-- The bias block at a step. -/
theorem blk_b (c : Dev nD) (t : Fin cfg0.N) (q : Fin 1024) :
    (iblk m c 3 t : Vec F S1x1024 .f32) (ix2 (0 : Fin 1) q) = V m c main_v5 (ix2 (0 : Fin 1) (rowW t.val q)) := by
  show V m c main_v5 (((cfg0.win 3).blk t).view.emb (ix2 (0 : Fin 1) q)) = _
  obtain ⟨-, -, -, -, -, -, e0, e1, -⟩ := tile_numbers t
  refine congrArg (V m c main_v5) (funext fun a => Fin.ext ?_)
  match a with
  | ⟨0, _⟩ => show win0_3.index t (0 : Fin 2) * 1 + 1 * 0 = 0; omega
  | ⟨1, _⟩ => show win0_3.index t (1 : Fin 2) * 1024 + 1 * q.val = 1024 * (t.val / 8 % 16) + q.val; omega

/-- The host's scale: the sum of the absolute weights over 2²⁶, bounded below by the small constant; a scalar. -/
def scale (w : S16384x4096.Idx → Elt F .f32) : S_.Idx → Elt F .f32 :=
  maximumf (Host.divf (Host.reduceAdd (Host.absf w) (constant S_ .f32 0x00000000#32) reducesTo_S16384x4096_S_d0_1 h_S_)
    (constant S_ .f32 0x4C800000#32)) (constant S_ .f32 0x358637BD#32)

/-- The scale array the kernel is handed: the scalar recast to 1×1. -/
theorem V_scale (c : Dev nD) :
    (V m c main_v4 : S1x1.Idx → Elt F .f32)
      = shapeCast S1x1 (scale (m ((c : Thread nD τ).loc main_arg1))) shapeCasts_S_S1x1 := by
  dsimp only [Gen.V, Gen.hostOps0]; after_results; rfl

/-- … so its one entry is the scalar. -/
theorem V_scale_entry (c : Dev nD) :
    (V m c main_v4 : S1x1.Idx → Elt F .f32) (ix2 0 0) = scale (m ((c : Thread nD τ).loc main_arg1)) ix0 := by
  rw [V_scale]
  unfold shapeCast
  exact congrArg _ (funext fun a => a.elim0)

/-- The bias row the kernel is handed: the bias vector recast to one row. -/
theorem V_bias (c : Dev nD) :
    (V m c main_v5 : S1x16384.Idx → Elt F .f32)
      = shapeCast S1x16384 (m ((c : Thread nD τ).loc main_arg2)) shapeCasts_S16384_S1x16384 := by
  dsimp only [Gen.V, Gen.hostOps0]; after_results; rfl

/-- … so its entry `(0, j)` is the bias at `j`. -/
theorem V_bias_entry (c : Dev nD) (j : Fin 16384) :
    (V m c main_v5 : S1x16384.Idx → Elt F .f32) (ix2 (0 : Fin 1) j) = m ((c : Thread nD τ).loc main_arg2) (ix1 j) := by
  rw [V_bias]
  exact shapeCast_a_1a_apply _ shapeCasts_S16384_S1x16384 0 j

end Cert.KernelIdeal.Blocks

end
-- ==== Proof.Spec.lean ====
/-
  The function both programs compute, on the extended reals.

  With `s` the scale, entry `(p, q)` of the result is the sum over the 4096 contraction positions `f` of
  `x[p, f]` times the quantised weight `quant s weight[q, f]`, plus `bias[q]`.
-/
import proofs.«134162_j4767413698790_1_alg».proof.Proof.Quant
import Idealize.ShloMosaic.Lib.ValueIdx

noncomputable section

open scoped BigOperators

namespace Cert.BitLinear

open Idealize.ShloMosaic Idealize.ShloMosaic.ValueIdx

/-- Entry `(p, q)` of `x · quant(weight)ᵀ + bias`. -/
def entry (s : EReal) (x : (⟨2, ![8192, 4096]⟩ : Shape).Idx → EReal) (w : (⟨2, ![16384, 4096]⟩ : Shape).Idx → EReal)
    (b : (⟨1, ![16384]⟩ : Shape).Idx → EReal) (p : Fin 8192) (q : Fin 16384) : EReal :=
  (∑ f : Fin 4096, x (ix2 p f) * quant s (w (ix2 q f))) + b (ix1 q)

/-- The whole result array. -/
def linear (s : EReal) (x : (⟨2, ![8192, 4096]⟩ : Shape).Idx → EReal) (w : (⟨2, ![16384, 4096]⟩ : Shape).Idx → EReal)
    (b : (⟨1, ![16384]⟩ : Shape).Idx → EReal) : (⟨2, ![8192, 16384]⟩ : Shape).Idx → EReal :=
  fun i => entry s x w b ⟨(i 0).val, (i 0).isLt⟩ ⟨(i 1).val, (i 1).isLt⟩

theorem linear_apply (s : EReal) (x : (⟨2, ![8192, 4096]⟩ : Shape).Idx → EReal)
    (w : (⟨2, ![16384, 4096]⟩ : Shape).Idx → EReal) (b : (⟨1, ![16384]⟩ : Shape).Idx → EReal) (p : Fin 8192) (q : Fin 16384) :
    linear s x w b (ix2 p q) = entry s x w b p q := rfl

end Cert.BitLinear

end
-- ==== Proof.LibTileSum.lean ====
/-
  A sum over N = T·W consecutive positions, taken tile by tile.

  The positions 0 … N−1 split into T tiles of W consecutive positions each; position w of tile k is W·k + w.
  In any commutative monoid the sum over all positions is the sum over the tiles of each tile's sum. A running
  total that starts from a value z and adds one tile's sum per step therefore ends, after all T steps, at z plus
  the whole sum. Tile numbers are also taken as plain naturals (the position then wraps around past the last
  tile, where it is never used), so that a running total can be stated over an initial segment of the naturals.
-/
import Idealize.ShloMosaic.Lib.ValueIdx

open scoped BigOperators

namespace Idealize.ShloMosaic.TileSum

/-- Position `w` of tile `k` among `N = T·W` positions. -/
def pos {T W N : ℕ} (hN : T * W = N) (k : Fin T) (w : Fin W) : Fin N :=
  ⟨W * k.val + w.val, by
    have hk := k.isLt
    have hw := w.isLt
    calc W * k.val + w.val < W * k.val + W := by omega
      _ = W * (k.val + 1) := by ring
      _ ≤ W * T := Nat.mul_le_mul_left _ hk
      _ = N := by rw [Nat.mul_comm]; exact hN⟩

/-- The sum over all positions is the sum over the tiles of each tile's sum. -/
theorem sum_tiles {M : Type*} [AddCommMonoid M] {T W N : ℕ} (hN : T * W = N) (g : Fin N → M) :
    ∑ f : Fin N, g f = ∑ k : Fin T, ∑ w : Fin W, g (pos hN k w) := by
  subst hN
  rw [← Equiv.sum_comp finProdFinEquiv g, Fintype.sum_prod_type]
  refine Finset.sum_congr rfl fun k _ => Finset.sum_congr rfl fun w _ => congrArg g (Fin.ext ?_)
  show w.val + W * k.val = W * k.val + w.val
  exact Nat.add_comm _ _

/-- Position `w` of the tile numbered `j`, for any natural `j`. -/
def posN {W N : ℕ} (hpos : 0 < N) (j : ℕ) (w : Fin W) : Fin N :=
  ⟨(W * j + w.val) % N, Nat.mod_lt _ hpos⟩

/-- For a tile number below `T` it is that tile's position. -/
theorem posN_eq {T W N : ℕ} (hN : T * W = N) (hpos : 0 < N) (k : Fin T) (w : Fin W) :
    posN hpos k.val w = pos hN k w :=
  Fin.ext (Nat.mod_eq_of_lt (pos hN k w).isLt)

/-- Its value, for a tile number below `T`. -/
theorem posN_val {T W N : ℕ} (hN : T * W = N) (hpos : 0 < N) (j : ℕ) (hj : j < T) (w : Fin W) :
    (posN hpos j w : Fin N).val = W * j + w.val :=
  congrArg Fin.val (posN_eq hN hpos ⟨j, hj⟩ w)

/-- The tiles numbered below `T`, summed, give the whole sum. -/
theorem sum_range_tiles {M : Type*} [AddCommMonoid M] {T W N : ℕ} (hN : T * W = N) (hpos : 0 < N) (g : Fin N → M) :
    ∑ j ∈ Finset.range T, ∑ w : Fin W, g (posN hpos j w) = ∑ f : Fin N, g f := by
  rw [Finset.sum_range, sum_tiles hN g]
  exact Finset.sum_congr rfl fun k _ => Finset.sum_congr rfl fun w _ => congrArg g (posN_eq hN hpos k w)

/-- A running total: what is there after the steps below `n`, plus step `n`'s addend, is what is there after the
    steps below `n + 1`. -/
theorem run_succ {M : Type*} [AddCommMonoid M] (z : M) (a : ℕ → M) (n : ℕ) :
    (z + ∑ j ∈ Finset.range n, a j) + a n = z + ∑ j ∈ Finset.range (n + 1), a j := by
  rw [Finset.sum_range_succ, add_assoc]

/-- A running total after its first step. -/
theorem run_one {M : Type*} [AddCommMonoid M] (z : M) (a : ℕ → M) :
    z + a 0 = z + ∑ j ∈ Finset.range 1, a j := by
  rw [Finset.sum_range_one]

end Idealize.ShloMosaic.TileSum
-- ==== Proof.Accum.lean ====
/-
  The accumulator across a run of eight grid steps, and the output tile the run's last step writes.

  Steps `8r, 8r + 1, …, 8r + 7` share one output tile and walk through the eight contraction tiles. Step `8r` leaves
  the accumulator at zero plus its own 512 products per entry; each later step adds its own. So after step `8r + j`
  an entry holds zero plus the addends of steps `8r … 8r + j`, and after step `8r + 7` the eight tiles' addends
  together are the sum over all 4096 contraction positions: a sum over consecutive positions taken tile by tile. The
  last step writes that sum plus the bias entry into the output tile, which is the specified function at the tile's
  place in the result.
-/
import proofs.«134162_j4767413698790_1_alg».proof.Proof.Gen.KernelIdeal.Value
import proofs.«134162_j4767413698790_1_alg».proof.Proof.Pieces
import proofs.«134162_j4767413698790_1_alg».proof.Proof.Payload
import proofs.«134162_j4767413698790_1_alg».proof.Proof.Blocks
import proofs.«134162_j4767413698790_1_alg».proof.Proof.Spec
import proofs.«134162_j4767413698790_1_alg».proof.Proof.LibTileSum
import Idealize.ShloMosaic.Lib.Pipeline.Value

noncomputable section

open scoped BigOperators

namespace Cert.KernelIdeal.Accum

open Cert.KernelIdeal Cert.KernelIdeal.Gen Idealize.ShloMosaic Idealize.ShloMosaic.TcCoe Idealize.SL.Sem
open Idealize.ShloMosaic.ValueIdx Cert.BitLinear Cert.KernelIdeal.Blocks

/-- One product of the contraction, at position `f`, for result row `r` and result column `j`. -/
def prod (s : EReal) (X : S8192x4096.Idx → EReal) (W : S16384x4096.Idx → EReal) (r : Fin 8192) (j : Fin 16384)
    (f : Fin 4096) : EReal :=
  X (ix2 r f) * quant s (W (ix2 j f))

/-- Step `n`'s addend at tile entry `i`: its 512 products. -/
def addend (s : EReal) (X : S8192x4096.Idx → EReal) (W : S16384x4096.Idx → EReal) (n : ℕ) (i : S1024x1024.Idx) : EReal :=
  ∑ k : Fin 512, prod s X W (rowX n ⟨(i 0).val, (i 0).isLt⟩) (rowW n ⟨(i 1).val, (i 1).isLt⟩) (colK n k)

variable (m : (ℓ : Loc nD τ sig) → Buf (Elt Ideal) ℓ)

/-- The arrays as the kernel finds them: `x`, `weight`, the scale's one entry, and the bias row as a vector. -/
abbrev xA (c : Dev nD) : S8192x4096.Idx → EReal := V m c main_arg0
abbrev wA (c : Dev nD) : S16384x4096.Idx → EReal := V m c main_arg1
abbrev sA (c : Dev nD) : EReal := (V m c main_v4 : S1x1.Idx → EReal) (ix2 0 0)
abbrev bA (c : Dev nD) : S16384.Idx → EReal :=
  fun j => (V m c main_v5 : S1x16384.Idx → EReal) (ix2 (0 : Fin 1) ⟨(j 0).val, (j 0).isLt⟩)

/-- One step's update of the accumulator, over the step's blocks: what it held plus the step's addend. -/
theorem step_at (c : Dev nD) (t : Fin cfg0.N) (acc : Vec Ideal S1024x1024 .f32) (i : S1024x1024.Idx) :
    k0_pay2 (F := Ideal) (iblk m c 0 t) (iblk m c 2 t) (iblk m c 1 t) acc i
      = acc i + addend (sA m c) (xA m c) (wA m c) t.val i := by
  obtain ⟨p, q, rfl⟩ : ∃ (p q : Fin 1024), i = ix2 p q := ⟨i 0, i 1, eq_ix2 i⟩
  refine (Payload.step_apply (iblk m c 0 t) (iblk m c 2 t) (iblk m c 1 t) acc p q).trans ?_
  refine congrArg (acc (ix2 p q) + ·) (Finset.sum_congr rfl fun k _ => ?_)
  exact congrArg₂ (· * ·) (blk_x m c t p k) (congrArg₂ quant (blk_s m c t) (blk_w m c t q k))

/-- The first step of a run leaves zero plus its addend, whatever the accumulator held. -/
theorem first_step (c : Dev nD) (n : ℕ) (hb : n < cfg0.N) (h0 : n % 8 = 0) (old : Vec Ideal S1024x1024 .f32)
    (i : S1024x1024.Idx) : Value.scAt0_0 m c n hb old i = 0 + addend (sA m c) (xA m c) (wA m c) n i := by
  have h7 : ¬n % 8 = 7 := by omega
  unfold Value.scAt0_0
  rw [dif_pos h0, dif_neg h7]
  refine (congrFun (Pieces.acc_first (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) scM0_0 (Memref.isWhole_whole _) ((hcond0_0 ⟨n, hb⟩).mpr h0) (fun h => h7 ((hcond0_1 ⟨n, hb⟩).mp h)) (iblk m c 0 ⟨n, hb⟩) (iblk m c 1 ⟨n, hb⟩) (iblk m c 2 ⟨n, hb⟩) (iblk m c 3 ⟨n, hb⟩)) i).trans ?_
  refine (step_at m c ⟨n, hb⟩ (k0_pay1 (F := Ideal)) i).trans ?_
  rw [Payload.zero_apply]

/-- A later step adds its addend to what the step before left. -/
theorem later_step (c : Dev nD) (n : ℕ) (hb : n < cfg0.N) (h0 : ¬n % 8 = 0) (acc : Vec Ideal S1024x1024 .f32)
    (i : S1024x1024.Idx) : Value.scAt0_0 m c n hb acc i = acc i + addend (sA m c) (xA m c) (wA m c) n i := by
  unfold Value.scAt0_0
  rw [dif_neg h0]
  by_cases h7 : n % 8 = 7
  · rw [dif_pos h7]
    exact (congrFun (Pieces.acc_last (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) scM0_0 (Memref.isWhole_whole _) (fun h => h0 ((hcond0_0 ⟨n, hb⟩).mp h)) ((hcond0_1 ⟨n, hb⟩).mpr h7) (iblk m c 0 ⟨n, hb⟩) (iblk m c 1 ⟨n, hb⟩) (iblk m c 2 ⟨n, hb⟩) (iblk m c 3 ⟨n, hb⟩) acc) i).trans
      (step_at m c ⟨n, hb⟩ acc i)
  · rw [dif_neg h7]
    exact (congrFun (Pieces.acc_mid (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) scM0_0 (Memref.isWhole_whole _) (fun h => h0 ((hcond0_0 ⟨n, hb⟩).mp h)) (fun h => h7 ((hcond0_1 ⟨n, hb⟩).mp h)) (iblk m c 0 ⟨n, hb⟩) (iblk m c 1 ⟨n, hb⟩) (iblk m c 2 ⟨n, hb⟩) (iblk m c 3 ⟨n, hb⟩) acc) i).trans
      (step_at m c ⟨n, hb⟩ acc i)

/-- THE ACCUMULATOR after step `t`: zero plus the addends of the run's steps up to `t`. -/
theorem acc_after (c : Dev nD) (t : Fin cfg0.N) (i : S1024x1024.Idx) :
    (outsAt0 m c t.val t.isLt).2 i
      = 0 + ∑ s ∈ Finset.range (t.val % 8 + 1), addend (sA m c) (xA m c) (wA m c) (8 * (t.val / 8) + s) i := by
  rw [Value.soutsAt0_0_eq m c t]
  exact Pipeline.accAt_add_apply (fun n h => Value.scAt0_0 m c n h (VS0_0.read (Elt Ideal) VS0_0.junk)) (Value.scAt0_0 m c)
    (fun _ => (0 : EReal)) (fun n i => addend (sA m c) (xA m c) (wA m c) n i) (8 * (t.val / 8)) 7
    (fun h i => first_step m c _ h (by omega) _ i)
    (fun n h acc i hlt hle => later_step m c n h (by omega) acc i)
    (t.val % 8) (by omega) _ i

/-- The eight tiles' addends of a run are the sum over all 4096 positions. -/
theorem run_sum (s : EReal) (X : S8192x4096.Idx → EReal) (W : S16384x4096.Idx → EReal) (t : ℕ) (p q : Fin 1024) :
    ∑ j ∈ Finset.range (7 + 1), addend s X W (8 * (t / 8) + j) (ix2 p q)
      = ∑ f : Fin 4096, prod s X W (rowX t p) (rowW t q) f := by
  rw [← TileSum.sum_range_tiles (T := 8) (W := 512) (N := 4096) rfl (by decide) (prod s X W (rowX t p) (rowW t q))]
  refine Finset.sum_congr rfl fun j hj => Finset.sum_congr rfl fun k _ => ?_
  have hj' : j < 8 := Finset.mem_range.mp hj
  have e1 : rowX (8 * (t / 8) + j) ⟨((ix2 p q : S1024x1024.Idx) 0).val, ((ix2 p q : S1024x1024.Idx) 0).isLt⟩ = rowX t p :=
    Fin.ext (by show 1024 * ((8 * (t / 8) + j) / 128 % 8) + p.val = 1024 * (t / 128 % 8) + p.val; omega)
  have e2 : rowW (8 * (t / 8) + j) ⟨((ix2 p q : S1024x1024.Idx) 1).val, ((ix2 p q : S1024x1024.Idx) 1).isLt⟩ = rowW t q :=
    Fin.ext (by show 1024 * ((8 * (t / 8) + j) / 8 % 16) + q.val = 1024 * (t / 8 % 16) + q.val; omega)
  have e3 : colK (8 * (t / 8) + j) k = TileSum.posN (N := 4096) (by decide) j k :=
    Fin.ext (by
      have hk := k.isLt
      show 512 * ((8 * (t / 8) + j) % 8) + k.val = (512 * j + k.val) % 4096
      omega)
  rw [e1, e2, e3]

/-- THE OUTPUT TILE the last step of a run writes: at entry `(p, q)` the specified function at the tile's place. -/
theorem tile_written (c : Dev nD) (t : Fin cfg0.N) (h7 : t.val % 8 = 7) (p q : Fin 1024) :
    (outsAt0 m c t.val t.isLt).1 (ix2 p q)
      = entry (sA m c) (xA m c) (wA m c) (bA m c) (rowX t.val p) (rowW t.val q) := by
  have h0 : ¬t.val % 8 = 0 := by omega
  have hC := outsAt0_C m c t h0 h7
  have e1 : (outsAt0 m c t.val t.isLt).1 = k0_pay3 (F := Ideal) (k0_pay2 (F := Ideal) (iblk m c 0 t) (iblk m c 2 t) (iblk m c 1 t) (outsAt0 m c (t.val - 1) (Nat.lt_of_le_of_lt (Nat.sub_le _ _) t.isLt)).2) (iblk m c 3 t) := by
    rw [hC]; dsimp only
    exact Pieces.out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h7) (iblk m c 0 t) (iblk m c 1 t) (iblk m c 2 t) (iblk m c 3 t) (outsAt0 m c (t.val - 1) (Nat.lt_of_le_of_lt (Nat.sub_le _ _) t.isLt)).2
  have e2 : (outsAt0 m c t.val t.isLt).2 = (k0_pay2 (F := Ideal) (iblk m c 0 t) (iblk m c 2 t) (iblk m c 1 t) (outsAt0 m c (t.val - 1) (Nat.lt_of_le_of_lt (Nat.sub_le _ _) t.isLt)).2) := by
    rw [hC]; dsimp only
    exact Pieces.acc_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h7) (iblk m c 0 t) (iblk m c 1 t) (iblk m c 2 t) (iblk m c 3 t) (outsAt0 m c (t.val - 1) (Nat.lt_of_le_of_lt (Nat.sub_le _ _) t.isLt)).2
  have hfst : (outsAt0 m c t.val t.isLt).1 (ix2 p q)
      = (outsAt0 m c t.val t.isLt).2 (ix2 p q) + (iblk m c 3 t : Vec Ideal S1x1024 .f32) (ix2 (0 : Fin 1) q) := by
    rw [e1, e2]
    exact Payload.out_apply (k0_pay2 (F := Ideal) (iblk m c 0 t) (iblk m c 2 t) (iblk m c 1 t) (outsAt0 m c (t.val - 1) (Nat.lt_of_le_of_lt (Nat.sub_le _ _) t.isLt)).2) (iblk m c 3 t) p q
  rw [hfst, acc_after m c t (ix2 p q), h7, run_sum (sA m c) (xA m c) (wA m c) t.val p q, zero_add, blk_b m c t q]
  unfold entry prod
  rfl

end Cert.KernelIdeal.Accum

end
-- ==== Proof.Final.lean ====
/-
  The kernel's result array after the run.

  Only the last step of each run of eight writes its output tile back; tile `(a, b)` of the 8 × 16 tiles of the
  result is written by step `128·a + 8·b + 7`, and what it writes is the specified function on that tile. The tiles
  cover the result, so the array ends holding the specified function of the argument arrays, with the host's scalar
  as the scale.
-/
import proofs.«134162_j4767413698790_1_alg».proof.Proof.Accum

noncomputable section

namespace Cert.KernelIdeal.Final

open Cert.KernelIdeal Cert.KernelIdeal.Gen Idealize.ShloMosaic Idealize.ShloMosaic.TcCoe Idealize.SL.Sem
open Idealize.ShloMosaic.ValueIdx Cert.BitLinear Cert.KernelIdeal.Blocks
open Idealize.ShloMosaic.Pipeline (Dat)

variable (m : (ℓ : Loc nD τ sig) → Buf (Elt Ideal) ℓ) (ρ : Dev nD → PrngReg)

/-- The result: the specified function of the argument arrays, the scale being the host's scalar of the weights. -/
abbrev result (c : Dev nD) : Buf (Elt Ideal) ((c : Thread nD τ).loc main_v6) :=
  linear (scale (F := Ideal) (m ((c : Thread nD τ).loc main_arg1)) ix0) (m ((c : Thread nD τ).loc main_arg0))
    (m ((c : Thread nD τ).loc main_arg1)) (m ((c : Thread nD τ).loc main_arg2))

/-- The bias row as the kernel finds it, read as a vector, is the bias argument. -/
theorem bias_eq (c : Dev nD) : Accum.bA m c = m ((c : Thread nD τ).loc main_arg2) :=
  funext fun j => (V_bias_entry m c ⟨(j 0).val, (j 0).isLt⟩).trans
    (congrArg (m ((c : Thread nD τ).loc main_arg2)) (eq_ix1 j).symm)

/-- The output tile the last step of a run writes is the result on the tile. -/
theorem tile_is_result (c : Dev nD) (t : Fin cfg0.N) (h7 : t.val % 8 = 7) (y : S1024x1024.Idx) :
    (outsAt0 m c t.val t.isLt).1 y
      = result m c (ix2 (rowX t.val ⟨(y 0).val, (y 0).isLt⟩) (rowW t.val ⟨(y 1).val, (y 1).isLt⟩)) := by
  obtain ⟨p, q, rfl⟩ : ∃ (p q : Fin 1024), y = ix2 p q := ⟨y 0, y 1, eq_ix2 y⟩
  refine (Accum.tile_written m c t h7 p q).trans ?_
  rw [bias_eq m c]
  show entry (Accum.sA m c) (Accum.xA m c) (Accum.wA m c) (m ((c : Thread nD τ).loc main_arg2)) (rowX t.val p) (rowW t.val q)
    = entry (scale (F := Ideal) (m ((c : Thread nD τ).loc main_arg1)) ix0) (m ((c : Thread nD τ).loc main_arg0))
        (m ((c : Thread nD τ).loc main_arg1)) (m ((c : Thread nD τ).loc main_arg2)) (rowX t.val p) (rowW t.val q)
  rw [show Accum.sA m c = scale (F := Ideal) (m ((c : Thread nD τ).loc main_arg1)) ix0 from V_scale_entry m c,
    show Accum.xA m c = m ((c : Thread nD τ).loc main_arg0) from V_main_arg0 m c,
    show Accum.wA m c = m ((c : Thread nD τ).loc main_arg1) from V_main_arg1 m c]

/-- WHAT A WRITE-BACK WRITES is its block of the result. -/
theorem flushed_eq (c : Dev nD) (t : Fin cfg0.N) (hf : (cfg0.win 4).flush t = true) :
    (dats m 0 c).flushed 4 t = ((cfg0.win 4).blk t).view.read (Elt Ideal) (result m c) := by
  have h7 : t.val % 8 = 7 := (flush0_4 t).mp hf
  rw [Value.flushed4]
  funext j
  show (outsAt0 m c t.val t.isLt).1 j = result m c (((cfg0.win 4).blk t).view.emb j)
  refine (tile_is_result m c t h7 j).trans (congrArg (result m c) (funext fun a => Fin.ext ?_))
  obtain ⟨-, -, -, -, -, -, -, -, e0, e1⟩ := tile_numbers t
  match a with
  | ⟨0, _⟩ => show 1024 * (t.val / 128 % 8) + (j 0).val = win0_4.index t (0 : Fin 2) * 1024 + 1 * (j 0).val; omega
  | ⟨1, _⟩ => show 1024 * (t.val / 8 % 16) + (j 1).val = win0_4.index t (1 : Fin 2) * 1024 + 1 * (j 1).val; omega

/-- An index of the result is in a step's output block iff each coordinate is in the block's range on its axis. -/
theorem mem_blk (t : Fin cfg0.N) (i : S8192x16384.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v6).slice (win0_4.rect t)).set ↔ _
  rw [View.set_slice_whole, Rect.mem_set_unit]
  exact Iff.rfl

/-- Every index of the result lies in the block some write-back writes: the last step of its tile's run. -/
theorem cover (i : S8192x16384.Idx) :
    ∃ t : Fin cfg0.N, (cfg0.win 4).flush t = true ∧ i ∈ ((cfg0.win 4).blk t).view.set := by
  have h0 : (i 0).val < 8192 := (i 0).isLt
  have h1 : (i 1).val < 16384 := (i 1).isLt
  have hN : cfg0.N = 1024 := N_0
  have hlt : ((i 0).val / 1024 * 16 + (i 1).val / 1024) * 8 + 7 < cfg0.N := by omega
  refine ⟨⟨((i 0).val / 1024 * 16 + (i 1).val / 1024) * 8 + 7, hlt⟩, ?_, ?_⟩
  · exact (flush0_4 _).mpr (by show (((i 0).val / 1024 * 16 + (i 1).val / 1024) * 8 + 7) % 8 = 7; omega)
  · rw [mem_blk]
    obtain ⟨-, -, -, -, -, -, -, -, e0, e1⟩ := tile_numbers ⟨((i 0).val / 1024 * 16 + (i 1).val / 1024) * 8 + 7, hlt⟩
    have e0' : win0_4.index ⟨((i 0).val / 1024 * 16 + (i 1).val / 1024) * 8 + 7, hlt⟩ (0 : Fin 2) = (i 0).val / 1024 := by
      rw [e0]; show (((i 0).val / 1024 * 16 + (i 1).val / 1024) * 8 + 7) / 128 % 8 = (i 0).val / 1024; omega
    have e1' : win0_4.index ⟨((i 0).val / 1024 * 16 + (i 1).val / 1024) * 8 + 7, hlt⟩ (1 : Fin 2) = (i 1).val / 1024 := by
      rw [e1]; show (((i 0).val / 1024 * 16 + (i 1).val / 1024) * 8 + 7) / 8 % 16 = (i 1).val / 1024; omega
    intro a
    match a with
    | ⟨0, _⟩ =>
      show win0_4.index _ (0 : Fin 2) * 1024 ≤ (i 0).val ∧ (i 0).val < win0_4.index _ (0 : Fin 2) * 1024 + 1024
      rw [e0']; omega
    | ⟨1, _⟩ =>
      show win0_4.index _ (1 : Fin 2) * 1024 ≤ (i 1).val ∧ (i 1).val < win0_4.index _ (1 : Fin 2) * 1024 + 1024
      rw [e1']; omega

/-- THE RESULT ARRAY after the run is the specified function of the argument arrays. -/
theorem final (c : Dev nD) : (dats m 0 c).arrAt 4 cfg0.N = result m c :=
  (dats m 0 c).arrAt_eq_of_cover 4 (result m c) (flushed_eq m c) cover

/-- The kernel's run: the result array at the specified function of the arguments, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Final

end
-- ==== Proof.RefValue.lean ====
/-
  The reference computes the specified function.

  Its result at `(p, q)` is the host's product of `x` with the quantised weights, contracted over axis 1 of both —
  the sum over `f` of `x[p, f]` times the quantised `weight[q, f]` —, plus the bias broadcast along the rows. The
  quantised weight is computed entry by entry from the weight and the scale broadcast to the weight's shape, in
  the spelling the specification uses; the scale is the host's scalar.
-/
import proofs.«134162_j4767413698790_1_alg».proof.Proof.Gen.ReferenceIdeal.Read
import proofs.«134162_j4767413698790_1_alg».proof.Proof.Spec

noncomputable section

open scoped BigOperators

namespace Cert.ReferenceIdeal.RefValue

open Cert.ReferenceIdeal Cert.ReferenceIdeal.Gen Cert.ReferenceIdeal.Read Idealize.ShloMosaic
open Idealize.ShloMosaic.ValueIdx Cert.BitLinear

/-- The reference's quantised weight at an entry. -/
theorem quantised_apply (w : S16384x4096.Idx → EReal) (j : S16384x4096.Idx) :
    val_main_v13 (F := Ideal) w j = quant (val_main_v3 (F := Ideal) w ix0) (w j) := by
  simp only [val_main_v13_apply, val_main_v11_apply, val_main_v12_apply, val_main_v6_apply, val_main_v10_apply,
    val_main_v9_apply, val_main_v7_apply, val_main_v8_apply, val_main_v5_apply, val_main_v4_apply,
    val_main_cst_2_apply]
  rfl

/-- The reference's result is the specified function of its arguments, with the host's scalar as the scale. -/
theorem result_eq (x : S8192x4096.Idx → EReal) (w : S16384x4096.Idx → EReal) (b : S16384.Idx → EReal) :
    val_main_v17 (F := Ideal) x w b = linear (val_main_v3 (F := Ideal) w ix0) x w b := by
  funext i
  have hl : ∀ k : Fin 4096, lidx_main_v14 i k = ix2 (⟨(i 0).val, (i 0).isLt⟩ : Fin 8192) k := fun k =>
    funext fun a => Fin.ext (by match a with | ⟨0, _⟩ => rfl | ⟨1, _⟩ => rfl)
  have hr : ∀ k : Fin 4096, ridx_main_v14 i k = ix2 (⟨(i 1).val, (i 1).isLt⟩ : Fin 16384) k := fun k =>
    funext fun a => Fin.ext (by match a with | ⟨0, _⟩ => rfl | ⟨1, _⟩ => rfl)
  have hb : idx_main_v15 (idx_main_v16 i) = ix1 (⟨(i 1).val, (i 1).isLt⟩ : Fin 16384) :=
    funext fun a => Fin.ext (by match a with | ⟨0, _⟩ => rfl)
  rw [val_main_v17_apply, val_main_v14_apply, val_main_v16_apply, val_main_v15_apply, hb, Ideal.addf_def]
  unfold linear entry
  refine congrArg (· + b (ix1 (⟨(i 1).val, (i 1).isLt⟩ : Fin 16384))) (Finset.sum_congr rfl fun k _ => ?_)
  rw [hl, hr, quantised_apply]

end Cert.ReferenceIdeal.RefValue

end
-- ==== Proof.lean ====
/-
  The certificate of a ternary-quantised linear layer: `x · quant(weight)ᵀ + bias`.

  Both programs first form the scale `s = max (Σ|weight| / 2²⁶, ε)` on the host. The reference then quantises the
  whole weight array entry by entry — `sign (w / s) · [ |w / s| > 1/2 ] · s` —, contracts `x` with it over the 4096
  input features, and adds the bias. The kernel walks an 8 × 16 × 8 grid: at each step it quantises a 1024 × 512
  weight tile in place, multiplies it with the matching tile of `x`, and accumulates the 1024 × 1024 product over
  the eight contraction tiles of a run; the last step of a run adds the bias row and writes the output tile.

  On the extended reals the two agree at every entry: the kernel's spelling of the sign and of the indicator is the
  reference's function (at the infinities too), a change of float format is the identity, and a sum over 4096
  consecutive positions taken as eight consecutive tiles of 512, starting from zero, is the whole sum — addition of
  extended reals is commutative and associative, so no finiteness is used. The one rewrite of the idealisation,
  reading "one with the sign bit of the quotient" as a comparison with zero, is the sign-bit rule's statement.
-/
import proofs.«134162_j4767413698790_1_alg».proof.Defs
import proofs.«134162_j4767413698790_1_alg».proof.Proof.Gen.Kernel
import proofs.«134162_j4767413698790_1_alg».proof.Proof.Gen.Kernel.Skeleton
import proofs.«134162_j4767413698790_1_alg».proof.Proof.Gen.Kernel.Launch
import proofs.«134162_j4767413698790_1_alg».proof.Proof.Gen.Kernel.Points
import proofs.«134162_j4767413698790_1_alg».proof.Proof.Gen.Kernel.Frame
import proofs.«134162_j4767413698790_1_alg».proof.Proof.Gen.KernelIdeal
import proofs.«134162_j4767413698790_1_alg».proof.Proof.Gen.KernelIdeal.Skeleton
import proofs.«134162_j4767413698790_1_alg».proof.Proof.Gen.KernelIdeal.Launch
import proofs.«134162_j4767413698790_1_alg».proof.Proof.Gen.KernelIdeal.Points
import proofs.«134162_j4767413698790_1_alg».proof.Proof.Gen.KernelIdeal.Frame
import proofs.«134162_j4767413698790_1_alg».proof.Proof.Gen.ReferenceIdeal
import proofs.«134162_j4767413698790_1_alg».proof.Proof.Gen.Pre_finite_inputs
import proofs.«134162_j4767413698790_1_alg».proof.Proof.Gen.KernelIdeal.Value
import proofs.«134162_j4767413698790_1_alg».proof.Proof.Gen.ReferenceIdeal.Run
import proofs.«134162_j4767413698790_1_alg».proof.Proof.Gen.ReferenceIdeal.Read
import proofs.«134162_j4767413698790_1_alg».proof.Proof.Final
import proofs.«134162_j4767413698790_1_alg».proof.Proof.RefValue
import Idealize.ShloMosaic.Adequacy
import Idealize.ShloMosaic.Init

noncomputable section

namespace Cert.Proof

open Idealize.ShloMosaic Idealize.ShloMosaic.TcCoe Idealize.SL.Sem

/-- The host's scalar scale is one term in both programs. -/
theorem scale_eq (w : Cert.ReferenceIdeal.S16384x4096.Idx → EReal) :
    Cert.ReferenceIdeal.Read.val_main_v3 (F := Ideal) w = Cert.KernelIdeal.Blocks.scale (F := Ideal) w := rfl

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealisation's one rewrite: one carrying the quotient's sign bit, read as a comparison with zero. -/
theorem preserves : Cert.preserves_Kernel_KernelIdeal :=
  IdealRules.sign_bit.statement Cert.KernelIdeal.S1024x512 .f32

/-- On the extended reals the kernel's result array and the reference's are the same function of arguments that
    agree. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.result_eq, scale_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
